-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x1024x64 : Shape := ⟨4, ![1, 1024, 1024, 64]⟩
abbrev S1x1024x1024x1 : Shape := ⟨4, ![1, 1024, 1024, 1]⟩
abbrev S_ : Shape := ⟨0, ![]⟩

class Facts : Prop where
  bcast_S_S1x1024x1024x64 : S_.BroadcastsInDim S1x1024x1024x64 (![] : Fin 0 → Fin S1x1024x1024x64.rank)
  reducesTo_S1x1024x1024x64_S_d0_1_2_3 : S1x1024x1024x64.ReducesTo [0, 1, 2, 3] S_
  h_S_ : 0 < S_.numel
  bcast_S_S1x1024x1024x1 : S_.BroadcastsInDim S1x1024x1024x1 (![] : Fin 0 → Fin S1x1024x1024x1.rank)
  reducesTo_S1x1024x1024x1_S_d0_1_2_3 : S1x1024x1024x1.ReducesTo [0, 1, 2, 3] S_

variable [Facts]

def fn {F : FTy → Type} [FloatOps F] (main_arg0 : FVec F S1x1024x1024x64 .f32) (main_arg1 : FVec F S1x1024x1024x1 .f32) : IVec S_ 1 :=
  let main_v0 : FVec F S1x1024x1024x64 .f32 := Host.absf main_arg0
  let main_cst : FVec F S_ .f32 := constant S_ .f32 0x7F800000#32
  let main_v1 : FVec F S1x1024x1024x64 .f32 := broadcastInDim S1x1024x1024x64 ![] bcast_S_S1x1024x1024x64 main_cst
  let main_v2 : IVec S1x1024x1024x64 1 := cmpf .olt main_v0 main_v1
  let main_c : IVec S_ 1 := constantI S_ 1 1#1
  let main_v3 : IVec S_ 1 := (fun x v => Host.reduce IntOp.andi x v reducesTo_S1x1024x1024x64_S_d0_1_2_3 h_S_) main_v2 main_c
  let main_v4 : FVec F S1x1024x1024x1 .f32 := Host.absf main_arg1
  let main_cst_0 : FVec F S_ .f32 := constant S_ .f32 0x7F800000#32
  let main_v5 : FVec F S1x1024x1024x1 .f32 := broadcastInDim S1x1024x1024x1 ![] bcast_S_S1x1024x1024x1 main_cst_0
  let main_v6 : IVec S1x1024x1024x1 1 := cmpf .olt main_v4 main_v5
  let main_c_1 : IVec S_ 1 := constantI S_ 1 1#1
  let main_v7 : IVec S_ 1 := (fun x v => Host.reduce IntOp.andi x v reducesTo_S1x1024x1024x1_S_d0_1_2_3 h_S_) main_v6 main_c_1
  let main_v8 : IVec S_ 1 := andi main_v3 main_v7
  main_v8
-- ==== Kernel.lean ====
abbrev S1x1024x1024x64 : Shape := ⟨4, ![1, 1024, 1024, 64]⟩
abbrev S1x1024x1024x1 : Shape := ⟨4, ![1, 1024, 1024, 1]⟩
abbrev S1024x1024x64 : Shape := ⟨3, ![1024, 1024, 64]⟩
abbrev S1024x1024x1 : Shape := ⟨3, ![1024, 1024, 1]⟩
abbrev S1024x1087 : Shape := ⟨2, ![1024, 1087]⟩
abbrev S64x1024x64 : Shape := ⟨3, ![64, 1024, 64]⟩
abbrev S64x1024x1 : Shape := ⟨3, ![64, 1024, 1]⟩
abbrev S64x1087 : Shape := ⟨2, ![64, 1087]⟩
abbrev S64x1024 : Shape := ⟨2, ![64, 1024]⟩
abbrev S1x1024x1087x1 : Shape := ⟨4, ![1, 1024, 1087, 1]⟩

abbrev nBuf : Space → Nat
  | .hbm => 6
  | .vmem => 6
  | .smem => 0
  | _ => 0

abbrev bufTy : (tb : Table) → Fin (tcTables nBuf tb) → BufTy
  | .hbm, ⟨0, _⟩ => ⟨S1x1024x1024x64, .f32⟩
  | .hbm, ⟨1, _⟩ => ⟨S1x1024x1024x1, .f32⟩
  | .hbm, ⟨2, _⟩ => ⟨S1024x1024x64, .f32⟩
  | .hbm, ⟨3, _⟩ => ⟨S1024x1024x1, .f32⟩
  | .hbm, ⟨4, _⟩ => ⟨S1024x1087, .f32⟩
  | .hbm, ⟨5, _⟩ => ⟨S1x1024x1087x1, .f32⟩
  | .local _ .vmem, ⟨0, _⟩ => ⟨S64x1024x64, .f32⟩
  | .local _ .vmem, ⟨1, _⟩ => ⟨S64x1024x64, .f32⟩
  | .local _ .vmem, ⟨2, _⟩ => ⟨S64x1024x1, .f32⟩
  | .local _ .vmem, ⟨3, _⟩ => ⟨S64x1024x1, .f32⟩
  | .local _ .vmem, ⟨4, _⟩ => ⟨S64x1087, .f32⟩
  | .local _ .vmem, ⟨5, _⟩ => ⟨S64x1087, .f32⟩
  | _, _ => ⟨S1x1024x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1087 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x1024x1024x64_S1024x1024x64 : S1x1024x1024x64.ShapeCasts S1024x1024x64
  shapeCasts_S1x1024x1024x1_S1024x1024x1 : S1x1024x1024x1.ShapeCasts S1024x1024x1
  inb_S64x1087_S64x1087_0_0 : ∀ a, (![0, 0] : Fin 2 → Nat) a + S64x1087.size a ≤ S64x1087.size a
  h_S64x1087 : 0 < S64x1087.numel
  inb_S64x1024x1_S64x1024x1_0_0_0 : ∀ a, (![0, 0, 0] : Fin 3 → Nat) a + S64x1024x1.size a ≤ S64x1024x1.size a
  h_S64x1024x1 : 0 < S64x1024x1.numel
  shapeCasts_S64x1024x1_S64x1024 : S64x1024x1.ShapeCasts S64x1024
  inb_S64x1024x64_S64x1024x1_0_0_0 : ∀ a, (![0, 0, 0] : Fin 3 → Nat) a + S64x1024x1.size a ≤ S64x1024x64.size a
  inb_S64x1087_S64x1024_0_0 : ∀ a, (![0, 0] : Fin 2 → Nat) a + S64x1024.size a ≤ S64x1087.size a
  h_S64x1024 : 0 < S64x1024.numel
  shapeCasts_S64x1024_S64x1024 : S64x1024.ShapeCasts S64x1024
  inb_S64x1024x64_S64x1024x1_0_0_1 : ∀ a, (![0, 0, 1] : Fin 3 → Nat) a + S64x1024x1.size a ≤ S64x1024x64.size a
  inb_S64x1087_S64x1024_0_1 : ∀ a, (![0, 1] : Fin 2 → Nat) a + S64x1024.size a ≤ S64x1087.size a
  inb_S64x1024x64_S64x1024x1_0_0_2 : ∀ a, (![0, 0, 2] : Fin 3 → Nat) a + S64x1024x1.size a ≤ S64x1024x64.size a
  inb_S64x1087_S64x1024_0_2 : ∀ a, (![0, 2] : Fin 2 → Nat) a + S64x1024.size a ≤ S64x1087.size a
  inb_S64x1024x64_S64x1024x1_0_0_3 : ∀ a, (![0, 0, 3] : Fin 3 → Nat) a + S64x1024x1.size a ≤ S64x1024x64.size a
  inb_S64x1087_S64x1024_0_3 : ∀ a, (![0, 3] : Fin 2 → Nat) a + S64x1024.size a ≤ S64x1087.size a
  inb_S64x1024x64_S64x1024x1_0_0_4 : ∀ a, (![0, 0, 4] : Fin 3 → Nat) a + S64x1024x1.size a ≤ S64x1024x64.size a
  inb_S64x1087_S64x1024_0_4 : ∀ a, (![0, 4] : Fin 2 → Nat) a + S64x1024.size a ≤ S64x1087.size a
  inb_S64x1024x64_S64x1024x1_0_0_5 : ∀ a, (![0, 0, 5] : Fin 3 → Nat) a + S64x1024x1.size a ≤ S64x1024x64.size a
  inb_S64x1087_S64x1024_0_5 : ∀ a, (![0, 5] : Fin 2 → Nat) a + S64x1024.size a ≤ S64x1087.size a
  inb_S64x1024x64_S64x1024x1_0_0_6 : ∀ a, (![0, 0, 6] : Fin 3 → Nat) a + S64x1024x1.size a ≤ S64x1024x64.size a
  inb_S64x1087_S64x1024_0_6 : ∀ a, (![0, 6] : Fin 2 → Nat) a + S64x1024.size a ≤ S64x1087.size a
  inb_S64x1024x64_S64x1024x1_0_0_7 : ∀ a, (![0, 0, 7] : Fin 3 → Nat) a + S64x1024x1.size a ≤ S64x1024x64.size a
  inb_S64x1087_S64x1024_0_7 : ∀ a, (![0, 7] : Fin 2 → Nat) a + S64x1024.size a ≤ S64x1087.size a
  inb_S64x1024x64_S64x1024x1_0_0_8 : ∀ a, (![0, 0, 8] : Fin 3 → Nat) a + S64x1024x1.size a ≤ S64x1024x64.size a
  inb_S64x1087_S64x1024_0_8 : ∀ a, (![0, 8] : Fin 2 → Nat) a + S64x1024.size a ≤ S64x1087.size a
  inb_S64x1024x64_S64x1024x1_0_0_9 : ∀ a, (![0, 0, 9] : Fin 3 → Nat) a + S64x1024x1.size a ≤ S64x1024x64.size a
  inb_S64x1087_S64x1024_0_9 : ∀ a, (![0, 9] : Fin 2 → Nat) a + S64x1024.size a ≤ S64x1087.size a
  inb_S64x1024x64_S64x1024x1_0_0_10 : ∀ a, (![0, 0, 10] : Fin 3 → Nat) a + S64x1024x1.size a ≤ S64x1024x64.size a
  inb_S64x1087_S64x1024_0_10 : ∀ a, (![0, 10] : Fin 2 → Nat) a + S64x1024.size a ≤ S64x1087.size a
  inb_S64x1024x64_S64x1024x1_0_0_11 : ∀ a, (![0, 0, 11] : Fin 3 → Nat) a + S64x1024x1.size a ≤ S64x1024x64.size a
  inb_S64x1087_S64x1024_0_11 : ∀ a, (![0, 11] : Fin 2 → Nat) a + S64x1024.size a ≤ S64x1087.size a
  inb_S64x1024x64_S64x1024x1_0_0_12 : ∀ a, (![0, 0, 12] : Fin 3 → Nat) a + S64x1024x1.size a ≤ S64x1024x64.size a
  inb_S64x1087_S64x1024_0_12 : ∀ a, (![0, 12] : Fin 2 → Nat) a + S64x1024.size a ≤ S64x1087.size a
  inb_S64x1024x64_S64x1024x1_0_0_13 : ∀ a, (![0, 0, 13] : Fin 3 → Nat) a + S64x1024x1.size a ≤ S64x1024x64.size a
  inb_S64x1087_S64x1024_0_13 : ∀ a, (![0, 13] : Fin 2 → Nat) a + S64x1024.size a ≤ S64x1087.size a
  inb_S64x1024x64_S64x1024x1_0_0_14 : ∀ a, (![0, 0, 14] : Fin 3 → Nat) a + S64x1024x1.size a ≤ S64x1024x64.size a
  inb_S64x1087_S64x1024_0_14 : ∀ a, (![0, 14] : Fin 2 → Nat) a + S64x1024.size a ≤ S64x1087.size a
  inb_S64x1024x64_S64x1024x1_0_0_15 : ∀ a, (![0, 0, 15] : Fin 3 → Nat) a + S64x1024x1.size a ≤ S64x1024x64.size a
  inb_S64x1087_S64x1024_0_15 : ∀ a, (![0, 15] : Fin 2 → Nat) a + S64x1024.size a ≤ S64x1087.size a
  inb_S64x1024x64_S64x1024x1_0_0_16 : ∀ a, (![0, 0, 16] : Fin 3 → Nat) a + S64x1024x1.size a ≤ S64x1024x64.size a
  inb_S64x1087_S64x1024_0_16 : ∀ a, (![0, 16] : Fin 2 → Nat) a + S64x1024.size a ≤ S64x1087.size a
  inb_S64x1024x64_S64x1024x1_0_0_17 : ∀ a, (![0, 0, 17] : Fin 3 → Nat) a + S64x1024x1.size a ≤ S64x1024x64.size a
  inb_S64x1087_S64x1024_0_17 : ∀ a, (![0, 17] : Fin 2 → Nat) a + S64x1024.size a ≤ S64x1087.size a
  inb_S64x1024x64_S64x1024x1_0_0_18 : ∀ a, (![0, 0, 18] : Fin 3 → Nat) a + S64x1024x1.size a ≤ S64x1024x64.size a
  inb_S64x1087_S64x1024_0_18 : ∀ a, (![0, 18] : Fin 2 → Nat) a + S64x1024.size a ≤ S64x1087.size a
  inb_S64x1024x64_S64x1024x1_0_0_19 : ∀ a, (![0, 0, 19] : Fin 3 → Nat) a + S64x1024x1.size a ≤ S64x1024x64.size a
  inb_S64x1087_S64x1024_0_19 : ∀ a, (![0, 19] : Fin 2 → Nat) a + S64x1024.size a ≤ S64x1087.size a
  inb_S64x1024x64_S64x1024x1_0_0_20 : ∀ a, (![0, 0, 20] : Fin 3 → Nat) a + S64x1024x1.size a ≤ S64x1024x64.size a
  inb_S64x1087_S64x1024_0_20 : ∀ a, (![0, 20] : Fin 2 → Nat) a + S64x1024.size a ≤ S64x1087.size a
  inb_S64x1024x64_S64x1024x1_0_0_21 : ∀ a, (![0, 0, 21] : Fin 3 → Nat) a + S64x1024x1.size a ≤ S64x1024x64.size a
  inb_S64x1087_S64x1024_0_21 : ∀ a, (![0, 21] : Fin 2 → Nat) a + S64x1024.size a ≤ S64x1087.size a
  inb_S64x1024x64_S64x1024x1_0_0_22 : ∀ a, (![0, 0, 22] : Fin 3 → Nat) a + S64x1024x1.size a ≤ S64x1024x64.size a
  inb_S64x1087_S64x1024_0_22 : ∀ a, (![0, 22] : Fin 2 → Nat) a + S64x1024.size a ≤ S64x1087.size a
  inb_S64x1024x64_S64x1024x1_0_0_23 : ∀ a, (![0, 0, 23] : Fin 3 → Nat) a + S64x1024x1.size a ≤ S64x1024x64.size a
  inb_S64x1087_S64x1024_0_23 : ∀ a, (![0, 23] : Fin 2 → Nat) a + S64x1024.size a ≤ S64x1087.size a
  inb_S64x1024x64_S64x1024x1_0_0_24 : ∀ a, (![0, 0, 24] : Fin 3 → Nat) a + S64x1024x1.size a ≤ S64x1024x64.size a
  inb_S64x1087_S64x1024_0_24 : ∀ a, (![0, 24] : Fin 2 → Nat) a + S64x1024.size a ≤ S64x1087.size a
  inb_S64x1024x64_S64x1024x1_0_0_25 : ∀ a, (![0, 0, 25] : Fin 3 → Nat) a + S64x1024x1.size a ≤ S64x1024x64.size a
  inb_S64x1087_S64x1024_0_25 : ∀ a, (![0, 25] : Fin 2 → Nat) a + S64x1024.size a ≤ S64x1087.size a
  inb_S64x1024x64_S64x1024x1_0_0_26 : ∀ a, (![0, 0, 26] : Fin 3 → Nat) a + S64x1024x1.size a ≤ S64x1024x64.size a
  inb_S64x1087_S64x1024_0_26 : ∀ a, (![0, 26] : Fin 2 → Nat) a + S64x1024.size a ≤ S64x1087.size a
  inb_S64x1024x64_S64x1024x1_0_0_27 : ∀ a, (![0, 0, 27] : Fin 3 → Nat) a + S64x1024x1.size a ≤ S64x1024x64.size a
  inb_S64x1087_S64x1024_0_27 : ∀ a, (![0, 27] : Fin 2 → Nat) a + S64x1024.size a ≤ S64x1087.size a
  inb_S64x1024x64_S64x1024x1_0_0_28 : ∀ a, (![0, 0, 28] : Fin 3 → Nat) a + S64x1024x1.size a ≤ S64x1024x64.size a
  inb_S64x1087_S64x1024_0_28 : ∀ a, (![0, 28] : Fin 2 → Nat) a + S64x1024.size a ≤ S64x1087.size a
  inb_S64x1024x64_S64x1024x1_0_0_29 : ∀ a, (![0, 0, 29] : Fin 3 → Nat) a + S64x1024x1.size a ≤ S64x1024x64.size a
  inb_S64x1087_S64x1024_0_29 : ∀ a, (![0, 29] : Fin 2 → Nat) a + S64x1024.size a ≤ S64x1087.size a
  inb_S64x1024x64_S64x1024x1_0_0_30 : ∀ a, (![0, 0, 30] : Fin 3 → Nat) a + S64x1024x1.size a ≤ S64x1024x64.size a
  inb_S64x1087_S64x1024_0_30 : ∀ a, (![0, 30] : Fin 2 → Nat) a + S64x1024.size a ≤ S64x1087.size a
  inb_S64x1024x64_S64x1024x1_0_0_31 : ∀ a, (![0, 0, 31] : Fin 3 → Nat) a + S64x1024x1.size a ≤ S64x1024x64.size a
  inb_S64x1087_S64x1024_0_31 : ∀ a, (![0, 31] : Fin 2 → Nat) a + S64x1024.size a ≤ S64x1087.size a
  inb_S64x1024x64_S64x1024x1_0_0_32 : ∀ a, (![0, 0, 32] : Fin 3 → Nat) a + S64x1024x1.size a ≤ S64x1024x64.size a
  inb_S64x1087_S64x1024_0_32 : ∀ a, (![0, 32] : Fin 2 → Nat) a + S64x1024.size a ≤ S64x1087.size a
  inb_S64x1024x64_S64x1024x1_0_0_33 : ∀ a, (![0, 0, 33] : Fin 3 → Nat) a + S64x1024x1.size a ≤ S64x1024x64.size a
  inb_S64x1087_S64x1024_0_33 : ∀ a, (![0, 33] : Fin 2 → Nat) a + S64x1024.size a ≤ S64x1087.size a
  inb_S64x1024x64_S64x1024x1_0_0_34 : ∀ a, (![0, 0, 34] : Fin 3 → Nat) a + S64x1024x1.size a ≤ S64x1024x64.size a
  inb_S64x1087_S64x1024_0_34 : ∀ a, (![0, 34] : Fin 2 → Nat) a + S64x1024.size a ≤ S64x1087.size a
  inb_S64x1024x64_S64x1024x1_0_0_35 : ∀ a, (![0, 0, 35] : Fin 3 → Nat) a + S64x1024x1.size a ≤ S64x1024x64.size a
  inb_S64x1087_S64x1024_0_35 : ∀ a, (![0, 35] : Fin 2 → Nat) a + S64x1024.size a ≤ S64x1087.size a
  inb_S64x1024x64_S64x1024x1_0_0_36 : ∀ a, (![0, 0, 36] : Fin 3 → Nat) a + S64x1024x1.size a ≤ S64x1024x64.size a
  inb_S64x1087_S64x1024_0_36 : ∀ a, (![0, 36] : Fin 2 → Nat) a + S64x1024.size a ≤ S64x1087.size a
  inb_S64x1024x64_S64x1024x1_0_0_37 : ∀ a, (![0, 0, 37] : Fin 3 → Nat) a + S64x1024x1.size a ≤ S64x1024x64.size a
  inb_S64x1087_S64x1024_0_37 : ∀ a, (![0, 37] : Fin 2 → Nat) a + S64x1024.size a ≤ S64x1087.size a
  inb_S64x1024x64_S64x1024x1_0_0_38 : ∀ a, (![0, 0, 38] : Fin 3 → Nat) a + S64x1024x1.size a ≤ S64x1024x64.size a
  inb_S64x1087_S64x1024_0_38 : ∀ a, (![0, 38] : Fin 2 → Nat) a + S64x1024.size a ≤ S64x1087.size a
  inb_S64x1024x64_S64x1024x1_0_0_39 : ∀ a, (![0, 0, 39] : Fin 3 → Nat) a + S64x1024x1.size a ≤ S64x1024x64.size a
  inb_S64x1087_S64x1024_0_39 : ∀ a, (![0, 39] : Fin 2 → Nat) a + S64x1024.size a ≤ S64x1087.size a
  inb_S64x1024x64_S64x1024x1_0_0_40 : ∀ a, (![0, 0, 40] : Fin 3 → Nat) a + S64x1024x1.size a ≤ S64x1024x64.size a
  inb_S64x1087_S64x1024_0_40 : ∀ a, (![0, 40] : Fin 2 → Nat) a + S64x1024.size a ≤ S64x1087.size a
  inb_S64x1024x64_S64x1024x1_0_0_41 : ∀ a, (![0, 0, 41] : Fin 3 → Nat) a + S64x1024x1.size a ≤ S64x1024x64.size a
  inb_S64x1087_S64x1024_0_41 : ∀ a, (![0, 41] : Fin 2 → Nat) a + S64x1024.size a ≤ S64x1087.size a
  inb_S64x1024x64_S64x1024x1_0_0_42 : ∀ a, (![0, 0, 42] : Fin 3 → Nat) a + S64x1024x1.size a ≤ S64x1024x64.size a
  inb_S64x1087_S64x1024_0_42 : ∀ a, (![0, 42] : Fin 2 → Nat) a + S64x1024.size a ≤ S64x1087.size a
  inb_S64x1024x64_S64x1024x1_0_0_43 : ∀ a, (![0, 0, 43] : Fin 3 → Nat) a + S64x1024x1.size a ≤ S64x1024x64.size a
  inb_S64x1087_S64x1024_0_43 : ∀ a, (![0, 43] : Fin 2 → Nat) a + S64x1024.size a ≤ S64x1087.size a
  inb_S64x1024x64_S64x1024x1_0_0_44 : ∀ a, (![0, 0, 44] : Fin 3 → Nat) a + S64x1024x1.size a ≤ S64x1024x64.size a
  inb_S64x1087_S64x1024_0_44 : ∀ a, (![0, 44] : Fin 2 → Nat) a + S64x1024.size a ≤ S64x1087.size a
  inb_S64x1024x64_S64x1024x1_0_0_45 : ∀ a, (![0, 0, 45] : Fin 3 → Nat) a + S64x1024x1.size a ≤ S64x1024x64.size a
  inb_S64x1087_S64x1024_0_45 : ∀ a, (![0, 45] : Fin 2 → Nat) a + S64x1024.size a ≤ S64x1087.size a
  inb_S64x1024x64_S64x1024x1_0_0_46 : ∀ a, (![0, 0, 46] : Fin 3 → Nat) a + S64x1024x1.size a ≤ S64x1024x64.size a
  inb_S64x1087_S64x1024_0_46 : ∀ a, (![0, 46] : Fin 2 → Nat) a + S64x1024.size a ≤ S64x1087.size a
  inb_S64x1024x64_S64x1024x1_0_0_47 : ∀ a, (![0, 0, 47] : Fin 3 → Nat) a + S64x1024x1.size a ≤ S64x1024x64.size a
  inb_S64x1087_S64x1024_0_47 : ∀ a, (![0, 47] : Fin 2 → Nat) a + S64x1024.size a ≤ S64x1087.size a
  inb_S64x1024x64_S64x1024x1_0_0_48 : ∀ a, (![0, 0, 48] : Fin 3 → Nat) a + S64x1024x1.size a ≤ S64x1024x64.size a
  inb_S64x1087_S64x1024_0_48 : ∀ a, (![0, 48] : Fin 2 → Nat) a + S64x1024.size a ≤ S64x1087.size a
  inb_S64x1024x64_S64x1024x1_0_0_49 : ∀ a, (![0, 0, 49] : Fin 3 → Nat) a + S64x1024x1.size a ≤ S64x1024x64.size a
  inb_S64x1087_S64x1024_0_49 : ∀ a, (![0, 49] : Fin 2 → Nat) a + S64x1024.size a ≤ S64x1087.size a
  inb_S64x1024x64_S64x1024x1_0_0_50 : ∀ a, (![0, 0, 50] : Fin 3 → Nat) a + S64x1024x1.size a ≤ S64x1024x64.size a
  inb_S64x1087_S64x1024_0_50 : ∀ a, (![0, 50] : Fin 2 → Nat) a + S64x1024.size a ≤ S64x1087.size a
  inb_S64x1024x64_S64x1024x1_0_0_51 : ∀ a, (![0, 0, 51] : Fin 3 → Nat) a + S64x1024x1.size a ≤ S64x1024x64.size a
  inb_S64x1087_S64x1024_0_51 : ∀ a, (![0, 51] : Fin 2 → Nat) a + S64x1024.size a ≤ S64x1087.size a
  inb_S64x1024x64_S64x1024x1_0_0_52 : ∀ a, (![0, 0, 52] : Fin 3 → Nat) a + S64x1024x1.size a ≤ S64x1024x64.size a
  inb_S64x1087_S64x1024_0_52 : ∀ a, (![0, 52] : Fin 2 → Nat) a + S64x1024.size a ≤ S64x1087.size a
  inb_S64x1024x64_S64x1024x1_0_0_53 : ∀ a, (![0, 0, 53] : Fin 3 → Nat) a + S64x1024x1.size a ≤ S64x1024x64.size a
  inb_S64x1087_S64x1024_0_53 : ∀ a, (![0, 53] : Fin 2 → Nat) a + S64x1024.size a ≤ S64x1087.size a
  inb_S64x1024x64_S64x1024x1_0_0_54 : ∀ a, (![0, 0, 54] : Fin 3 → Nat) a + S64x1024x1.size a ≤ S64x1024x64.size a
  inb_S64x1087_S64x1024_0_54 : ∀ a, (![0, 54] : Fin 2 → Nat) a + S64x1024.size a ≤ S64x1087.size a
  inb_S64x1024x64_S64x1024x1_0_0_55 : ∀ a, (![0, 0, 55] : Fin 3 → Nat) a + S64x1024x1.size a ≤ S64x1024x64.size a
  inb_S64x1087_S64x1024_0_55 : ∀ a, (![0, 55] : Fin 2 → Nat) a + S64x1024.size a ≤ S64x1087.size a
  inb_S64x1024x64_S64x1024x1_0_0_56 : ∀ a, (![0, 0, 56] : Fin 3 → Nat) a + S64x1024x1.size a ≤ S64x1024x64.size a
  inb_S64x1087_S64x1024_0_56 : ∀ a, (![0, 56] : Fin 2 → Nat) a + S64x1024.size a ≤ S64x1087.size a
  inb_S64x1024x64_S64x1024x1_0_0_57 : ∀ a, (![0, 0, 57] : Fin 3 → Nat) a + S64x1024x1.size a ≤ S64x1024x64.size a
  inb_S64x1087_S64x1024_0_57 : ∀ a, (![0, 57] : Fin 2 → Nat) a + S64x1024.size a ≤ S64x1087.size a
  inb_S64x1024x64_S64x1024x1_0_0_58 : ∀ a, (![0, 0, 58] : Fin 3 → Nat) a + S64x1024x1.size a ≤ S64x1024x64.size a
  inb_S64x1087_S64x1024_0_58 : ∀ a, (![0, 58] : Fin 2 → Nat) a + S64x1024.size a ≤ S64x1087.size a
  inb_S64x1024x64_S64x1024x1_0_0_59 : ∀ a, (![0, 0, 59] : Fin 3 → Nat) a + S64x1024x1.size a ≤ S64x1024x64.size a
  inb_S64x1087_S64x1024_0_59 : ∀ a, (![0, 59] : Fin 2 → Nat) a + S64x1024.size a ≤ S64x1087.size a
  inb_S64x1024x64_S64x1024x1_0_0_60 : ∀ a, (![0, 0, 60] : Fin 3 → Nat) a + S64x1024x1.size a ≤ S64x1024x64.size a
  inb_S64x1087_S64x1024_0_60 : ∀ a, (![0, 60] : Fin 2 → Nat) a + S64x1024.size a ≤ S64x1087.size a
  inb_S64x1024x64_S64x1024x1_0_0_61 : ∀ a, (![0, 0, 61] : Fin 3 → Nat) a + S64x1024x1.size a ≤ S64x1024x64.size a
  inb_S64x1087_S64x1024_0_61 : ∀ a, (![0, 61] : Fin 2 → Nat) a + S64x1024.size a ≤ S64x1087.size a
  inb_S64x1024x64_S64x1024x1_0_0_62 : ∀ a, (![0, 0, 62] : Fin 3 → Nat) a + S64x1024x1.size a ≤ S64x1024x64.size a
  inb_S64x1087_S64x1024_0_62 : ∀ a, (![0, 62] : Fin 2 → Nat) a + S64x1024.size a ≤ S64x1087.size a
  inb_S64x1024x64_S64x1024x1_0_0_63 : ∀ a, (![0, 0, 63] : Fin 3 → Nat) a + S64x1024x1.size a ≤ S64x1024x64.size a
  inb_S64x1087_S64x1024_0_63 : ∀ a, (![0, 63] : Fin 2 → Nat) a + S64x1024.size a ≤ S64x1087.size a
  bcast_S1024x1087_S1x1024x1087x1_1_2 : S1024x1087.BroadcastsInDim S1x1024x1087x1 (![1, 2] : Fin 2 → Fin S1x1024x1087x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024x64.size a ≤ S1024x1024x64.size a
  hwx0_0 : ∀ i : grid0.Coords, EltTy.bits .f32 = 32 ∨ (Rect.block (s := S1024x1024x64) S64x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024x1.size a ≤ S1024x1024x1.size a
  hwx0_1 : ∀ i : grid0.Coords, EltTy.bits .f32 = 32 ∨ (Rect.block (s := S1024x1024x1) S64x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1087.size a ≤ S1024x1087.size a
  hwx0_2 : ∀ i : grid0.Coords, EltTy.bits .f32 = 32 ∨ (Rect.block (s := S1024x1087) S64x1087.size (cc0_transform_2 i) (hinb0_2 i)).WholeWords (EltTy.packing .f32)

variable [Facts₀]

abbrev win0_0 : Pipeline.Window sig grid0 :=
  Pipeline.Window.ofSpec (Memref.whole main_v0) S64x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1087.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1024x1024x64 : Shape := ⟨4, ![1, 1024, 1024, 64]⟩
abbrev S1x1024x1024x1 : Shape := ⟨4, ![1, 1024, 1024, 1]⟩
abbrev S1024x1024x64 : Shape := ⟨3, ![1024, 1024, 64]⟩
abbrev S1024 : Shape := ⟨1, ![1024]⟩
abbrev S1024x1 : Shape := ⟨2, ![1024, 1]⟩
abbrev S64 : Shape := ⟨1, ![64]⟩
abbrev S1x64 : Shape := ⟨2, ![1, 64]⟩
abbrev S1024x64 : Shape := ⟨2, ![1024, 64]⟩
abbrev S_ : Shape := ⟨0, ![]⟩
abbrev S1024x1087 : Shape := ⟨2, ![1024, 1087]⟩
abbrev S1024x64x1 : Shape := ⟨3, ![1024, 64, 1]⟩
abbrev S1x1024x1087x1 : Shape := ⟨4, ![1, 1024, 1087, 1]⟩

abbrev nBuf : Space → Nat
  | .hbm => 24
  | .vmem => 0
  | .smem => 0
  | _ => 0

abbrev bufTy : (tb : Table) → Fin (tcTables nBuf tb) → BufTy
  | .hbm, ⟨0, _⟩ => ⟨S1x1024x1024x64, .f32⟩
  | .hbm, ⟨1, _⟩ => ⟨S1x1024x1024x1, .f32⟩
  | .hbm, ⟨2, _⟩ => ⟨S1x1024x1024x64, .f32⟩
  | .hbm, ⟨3, _⟩ => ⟨S1x1024x1024x64, .f32⟩
  | .hbm, ⟨4, _⟩ => ⟨S1024x1024x64, .f32⟩
  | .hbm, ⟨5, _⟩ => ⟨S1024, .i32⟩
  | .hbm, ⟨6, _⟩ => ⟨S1024x1, .i32⟩
  | .hbm, ⟨7, _⟩ => ⟨S64, .i32⟩
  | .hbm, ⟨8, _⟩ => ⟨S1x64, .i32⟩
  | .hbm, ⟨9, _⟩ => ⟨S1024x64, .i32⟩
  | .hbm, ⟨10, _⟩ => ⟨S1024x64, .i32⟩
  | .hbm, ⟨11, _⟩ => ⟨S1024x64, .i32⟩
  | .hbm, ⟨12, _⟩ => ⟨S_, .f32⟩
  | .hbm, ⟨13, _⟩ => ⟨S1024x1087, .f32⟩
  | .hbm, ⟨14, _⟩ => ⟨S_, .i32⟩
  | .hbm, ⟨15, _⟩ => ⟨S1024x64, .i32⟩
  | .hbm, ⟨16, _⟩ => ⟨S1024x64, .i1⟩
  | .hbm, ⟨17, _⟩ => ⟨S_, .i32⟩
  | .hbm, ⟨18, _⟩ => ⟨S1024x64, .i32⟩
  | .hbm, ⟨19, _⟩ => ⟨S1024x64, .i32⟩
  | .hbm, ⟨20, _⟩ => ⟨S1024x64, .i32⟩
  | .hbm, ⟨21, _⟩ => ⟨S1024x64x1, .i32⟩
  | .hbm, ⟨22, _⟩ => ⟨S1024x1087, .f32⟩
  | .hbm, ⟨23, _⟩ => ⟨S1x1024x1087x1, .f32⟩
  | _, _ => ⟨S1x1024x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S1x1024x1024x1_S1x1024x1024x64_0_1_2_3 : S1x1024x1024x1.BroadcastsInDim S1x1024x1024x64 (![0, 1, 2, 3] : Fin 4 → Fin S1x1024x1024x64.rank)
  shapeCasts_S1x1024x1024x64_S1024x1024x64 : S1x1024x1024x64.ShapeCasts S1024x1024x64
  bcast_S1024_S1024x1_0 : S1024.BroadcastsInDim S1024x1 (![0] : Fin 1 → Fin S1024x1.rank)
  bcast_S64_S1x64_1 : S64.BroadcastsInDim S1x64 (![1] : Fin 1 → Fin S1x64.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  bcast_S_S1024x1087 : S_.BroadcastsInDim S1024x1087 (![] : Fin 0 → Fin S1024x1087.rank)
  bcast_S_S1024x64 : S_.BroadcastsInDim S1024x64 (![] : Fin 0 → Fin S1024x64.rank)
  bcast_S1024x64_S1024x64x1_0_1 : S1024x64.BroadcastsInDim S1024x64x1 (![0, 1] : Fin 2 → Fin S1024x64x1.rank)
  bcast_S1024x1087_S1x1024x1087x1_1_2 : S1024x1087.BroadcastsInDim S1x1024x1087x1 (![1, 2] : Fin 2 → Fin S1x1024x1087x1.rank)
  scatter_S1024x1087_S1024x64x1_S1024x1024x64_0_1_1_2_wf : ScatterDims.WF S1024x1087 S1024x64x1 S1024x1024x64 [0] [1] [1] 2

variable [Facts₀]

def scatter_S1024x1087_S1024x64x1_S1024x1024x64_0_1_1_2 : ScatterDims S1024x1087 S1024x64x1 S1024x1024x64 where
  updateWindowDims := [0]
  insertedWindowDims := [1]
  scatterDimsToOperandDims := [1]
  indexVectorDim := 2
  wf := scatter_S1024x1087_S1024x64x1_S1024x1024x64_0_1_1_2_wf

class Facts : Prop extends Facts₀ where

variable [Facts]
-- ==== Proof.ChainWord.lean ====
/-
  The kernel body's stores as a chain.  At one grid point the body clears its [64, 1087] output block and then, for each
  spectral band l = 0, …, 63, loads the columns l, …, l + 1023 of the block back, adds the band  x[·, ·, l]  times the
  aperture, and stores them again.  So the stores are: the zero block first, then one store per band whose payload
  reads what the stores before it left.  The zero block's store goes through the whole block, so the chain's
  rectangles cover every entry of the block.  (Stated for any float instance.)
-/
import proofs.«144922_j22230750724218_1_alg».proof.Proof.Gen.Kernel.Frame.RunA
import Idealize.ShloMosaic.Lib.Pipeline.Value
import Idealize.ShloMosaic.Lib.ValueIdx

noncomputable section

namespace Cert.Kernel.Bands

open Cert.Kernel Cert.Kernel.Gen Idealize.ShloMosaic Idealize.ShloMosaic.ValueIdx

/-- Band `l`'s window in the output block: all 64 rows, columns `l, …, l + 1023`. -/
abbrev win (l : ℕ) (hl : l < 64) : Rect S64x1087 :=
  Rect.unit ![0, l] S64x1024.size (fun a => match a with
    | ⟨0, _⟩ => (by show 0 + 64 ≤ 64; omega)
    | ⟨1, _⟩ => (by show l + 1024 ≤ 1087; omega))

/-- Band `l` of the cube's block: `x[·, ·, l]` as a [64, 1024, 1] slab. -/
abbrev slab (l : ℕ) (hl : l < 64) : Rect S64x1024x64 :=
  Rect.unit ![0, 0, l] S64x1024x1.size (fun a => match a with
    | ⟨0, _⟩ => (by show 0 + 64 ≤ 64; omega)
    | ⟨1, _⟩ => (by show 0 + 1024 ≤ 1024; omega)
    | ⟨2, _⟩ => (by show l + 1 ≤ 64; omega))

section Chain
variable {F : FTy → Type} [FloatOps F]

/-- One band's store: what the block held under the band's window, plus the band's slab (its unit axis dropped)
    times the mask. -/
def bandSum (mask : FVec F S64x1024 .f32) (xl : FVec F S64x1024x1 .f32) (ol : FVec F S64x1024 .f32) : FVec F S64x1024 .f32 :=
  addf (shapeCast S64x1024 ol shapeCasts_S64x1024_S64x1024) (mulf (shapeCast S64x1024 xl shapeCasts_S64x1024x1_S64x1024) mask)

/-- The stores of the first `l` bands, last first, over the zero block: band `l`'s store goes through its window,
    and its payload is what the earlier stores left there plus the band's slab times the mask. -/
inductive Chain (v : View sig .tc .vmem S64x1087 .f32) (mask : FVec F S64x1024 .f32)
    (band : (l : ℕ) → l < 64 → Vec F S64x1024x1 .f32) : ℕ → List (View.Piece (Elt F) S64x1087 .f32) → Prop
  | zero : Chain v mask band 0 [⟨Rect.unit ![0, 0] S64x1087.size inb_S64x1087_S64x1087_0_0, k0_pay2⟩]
  | step (l : ℕ) (hl : l < 64) (L : List (View.Piece (Elt F) S64x1087 .f32)) : Chain v mask band l L →
      Chain v mask band (l + 1)
        (⟨win l hl, bandSum mask (band l hl) (v.readCov L (win l hl).toLoadRect)⟩ :: L)

theorem zero2 : (![0, 0] : Fin 2 → ℕ) = fun _ => 0 := funext fun a => by fin_cases a <;> rfl

/-- The zero block's store stays in the chain, -/
theorem Chain.zero_mem {v : View sig .tc .vmem S64x1087 .f32} {mask : FVec F S64x1024 .f32}
    {band : (l : ℕ) → l < 64 → Vec F S64x1024x1 .f32} {l : ℕ} {L : List (View.Piece (Elt F) S64x1087 .f32)}
    (h : Chain v mask band l L) :
    (⟨Rect.unit ![0, 0] S64x1087.size inb_S64x1087_S64x1087_0_0, k0_pay2⟩ : View.Piece (Elt F) S64x1087 .f32) ∈ L := by
  induction h with
  | zero => exact List.mem_singleton_self _
  | step l hl L hL ih => exact List.mem_cons_of_mem _ ih

/-- and its rectangle is the whole block: the chain's stores cover every entry. -/
theorem Chain.cover {v : View sig .tc .vmem S64x1087 .f32} {mask : FVec F S64x1024 .f32}
    {band : (l : ℕ) → l < 64 → Vec F S64x1024x1 .f32} {l : ℕ} {L : List (View.Piece (Elt F) S64x1087 .f32)}
    (h : Chain v mask band l L) (y : S64x1087.Idx) : ∃ pc ∈ L, y ∈ pc.1.set :=
  ⟨_, h.zero_mem, View.mem_set_unit_zero zero2 inb_S64x1087_S64x1087_0_0 y⟩

/-- The body's run leaves exactly this chain: 64 band stores over the zero block, the mask the aperture block
    with its unit axis dropped, band `l` the slab `x[·, ·, l]` of the cube's block. -/
theorem chain_run (c : Dev nD) (i : grid0.Coords) (a1 : Memref sig .tc .vmem S64x1024x64 .f32) (h1 : a1.IsWhole)
    (a2 : Memref sig .tc .vmem S64x1024x1 .f32) (h2 : a2.IsWhole) (a3 : Memref sig .tc .vmem S64x1087 .f32) (h3 : a3.IsWhole)
    (x0 : Vec F S64x1024x64 .f32) (x1 : Vec F S64x1024x1 .f32) :
    Chain a3.view
      (k0_pay3 (View.readAt (Elt F) a2.view
        (Rect.unit ![0, 0, 0] S64x1024x1.size inb_S64x1024x1_S64x1024x1_0_0_0).toLoadRect (h2.unread x1)))
      (fun l hl => View.readAt (Elt F) a1.view (slab l hl).toLoadRect (h1.unread x0))
      64 (kernelRun0_A c i a1 h1 a2 h2 a3 h3 x0 x1).1 := by
  unfold kernelRun0_A
  dsimp only
  iterate 64 (refine Chain.step _ (by omega) _ ?_)
  exact Chain.zero

end Chain

end Cert.Kernel.Bands

end
-- ==== Proof.ChainIdeal.lean ====
/-
  The kernel body's stores as a chain.  At one grid point the body clears its [64, 1087] output block and then, for each
  spectral band l = 0, …, 63, loads the columns l, …, l + 1023 of the block back, adds the band  x[·, ·, l]  times the
  aperture, and stores them again.  So the stores are: the zero block first, then one store per band whose payload
  reads what the stores before it left.  The zero block's store goes through the whole block, so the chain's
  rectangles cover every entry of the block.  (Stated for any float instance.)
-/
import proofs.«144922_j22230750724218_1_alg».proof.Proof.Gen.KernelIdeal.Frame.RunA
import Idealize.ShloMosaic.Lib.Pipeline.Value
import Idealize.ShloMosaic.Lib.ValueIdx

noncomputable section

namespace Cert.KernelIdeal.Bands

open Cert.KernelIdeal Cert.KernelIdeal.Gen Idealize.ShloMosaic Idealize.ShloMosaic.ValueIdx

/-- Band `l`'s window in the output block: all 64 rows, columns `l, …, l + 1023`. -/
abbrev win (l : ℕ) (hl : l < 64) : Rect S64x1087 :=
  Rect.unit ![0, l] S64x1024.size (fun a => match a with
    | ⟨0, _⟩ => (by show 0 + 64 ≤ 64; omega)
    | ⟨1, _⟩ => (by show l + 1024 ≤ 1087; omega))

/-- Band `l` of the cube's block: `x[·, ·, l]` as a [64, 1024, 1] slab. -/
abbrev slab (l : ℕ) (hl : l < 64) : Rect S64x1024x64 :=
  Rect.unit ![0, 0, l] S64x1024x1.size (fun a => match a with
    | ⟨0, _⟩ => (by show 0 + 64 ≤ 64; omega)
    | ⟨1, _⟩ => (by show 0 + 1024 ≤ 1024; omega)
    | ⟨2, _⟩ => (by show l + 1 ≤ 64; omega))

section Chain
variable {F : FTy → Type} [FloatOps F]

/-- One band's store: what the block held under the band's window, plus the band's slab (its unit axis dropped)
    times the mask. -/
def bandSum (mask : FVec F S64x1024 .f32) (xl : FVec F S64x1024x1 .f32) (ol : FVec F S64x1024 .f32) : FVec F S64x1024 .f32 :=
  addf (shapeCast S64x1024 ol shapeCasts_S64x1024_S64x1024) (mulf (shapeCast S64x1024 xl shapeCasts_S64x1024x1_S64x1024) mask)

/-- The stores of the first `l` bands, last first, over the zero block: band `l`'s store goes through its window,
    and its payload is what the earlier stores left there plus the band's slab times the mask. -/
inductive Chain (v : View sig .tc .vmem S64x1087 .f32) (mask : FVec F S64x1024 .f32)
    (band : (l : ℕ) → l < 64 → Vec F S64x1024x1 .f32) : ℕ → List (View.Piece (Elt F) S64x1087 .f32) → Prop
  | zero : Chain v mask band 0 [⟨Rect.unit ![0, 0] S64x1087.size inb_S64x1087_S64x1087_0_0, k0_pay2⟩]
  | step (l : ℕ) (hl : l < 64) (L : List (View.Piece (Elt F) S64x1087 .f32)) : Chain v mask band l L →
      Chain v mask band (l + 1)
        (⟨win l hl, bandSum mask (band l hl) (v.readCov L (win l hl).toLoadRect)⟩ :: L)

theorem zero2 : (![0, 0] : Fin 2 → ℕ) = fun _ => 0 := funext fun a => by fin_cases a <;> rfl

/-- The zero block's store stays in the chain, -/
theorem Chain.zero_mem {v : View sig .tc .vmem S64x1087 .f32} {mask : FVec F S64x1024 .f32}
    {band : (l : ℕ) → l < 64 → Vec F S64x1024x1 .f32} {l : ℕ} {L : List (View.Piece (Elt F) S64x1087 .f32)}
    (h : Chain v mask band l L) :
    (⟨Rect.unit ![0, 0] S64x1087.size inb_S64x1087_S64x1087_0_0, k0_pay2⟩ : View.Piece (Elt F) S64x1087 .f32) ∈ L := by
  induction h with
  | zero => exact List.mem_singleton_self _
  | step l hl L hL ih => exact List.mem_cons_of_mem _ ih

/-- and its rectangle is the whole block: the chain's stores cover every entry. -/
theorem Chain.cover {v : View sig .tc .vmem S64x1087 .f32} {mask : FVec F S64x1024 .f32}
    {band : (l : ℕ) → l < 64 → Vec F S64x1024x1 .f32} {l : ℕ} {L : List (View.Piece (Elt F) S64x1087 .f32)}
    (h : Chain v mask band l L) (y : S64x1087.Idx) : ∃ pc ∈ L, y ∈ pc.1.set :=
  ⟨_, h.zero_mem, View.mem_set_unit_zero zero2 inb_S64x1087_S64x1087_0_0 y⟩

/-- The body's run leaves exactly this chain: 64 band stores over the zero block, the mask the aperture block
    with its unit axis dropped, band `l` the slab `x[·, ·, l]` of the cube's block. -/
theorem chain_run (c : Dev nD) (i : grid0.Coords) (a1 : Memref sig .tc .vmem S64x1024x64 .f32) (h1 : a1.IsWhole)
    (a2 : Memref sig .tc .vmem S64x1024x1 .f32) (h2 : a2.IsWhole) (a3 : Memref sig .tc .vmem S64x1087 .f32) (h3 : a3.IsWhole)
    (x0 : Vec F S64x1024x64 .f32) (x1 : Vec F S64x1024x1 .f32) :
    Chain a3.view
      (k0_pay3 (View.readAt (Elt F) a2.view
        (Rect.unit ![0, 0, 0] S64x1024x1.size inb_S64x1024x1_S64x1024x1_0_0_0).toLoadRect (h2.unread x1)))
      (fun l hl => View.readAt (Elt F) a1.view (slab l hl).toLoadRect (h1.unread x0))
      64 (kernelRun0_A c i a1 h1 a2 h2 a3 h3 x0 x1).1 := by
  unfold kernelRun0_A
  dsimp only
  iterate 64 (refine Chain.step _ (by omega) _ ?_)
  exact Chain.zero

end Chain

end Cert.KernelIdeal.Bands

end
-- ==== Proof.LibDiagonal.lean ====
/-
  Sums along an anti-diagonal (a general lemma file: it imports only the library).
  For a family `t n l` in any additive commutative monoid and a column `c`, `diag N t L c` is the sum of the terms
  `t (c - l) l` over the bands `l < L` whose shifted window `l, …, l + N - 1` holds `c`: the pairs `(n, l)` with
  `n + l = c`, `n < N`, `l < L`.  Adding the bands one at a time, each over its own window, builds the same sum
  (`diag_zero`, `diag_succ_of_mem`, `diag_succ_of_not_mem`): the recurrence of a loop that accumulates shifted
  slices into one buffer.  `diag_eq_sum_fin` is the same sum over the bands as a finite type, for meeting a sum over
  an index set (a scatter-add's updates that land on one entry).
-/
import Idealize.ShloMosaic.Lib.ValueIdx

namespace Cert.Diagonal

open Finset

variable {M : Type*} [AddCommMonoid M]

/-- The terms `t (c - k) k` of the first `L` bands whose window `k ≤ c < k + N` holds column `c`, summed. -/
def diag (N : ℕ) (t : ℕ → ℕ → M) (L c : ℕ) : M :=
  ∑ k ∈ range L, if k ≤ c ∧ c < k + N then t (c - k) k else 0

theorem diag_zero (N : ℕ) (t : ℕ → ℕ → M) (c : ℕ) : diag N t 0 c = 0 := by
  simp [diag]

/-- Band `L` adds its term at the columns of its window, -/
theorem diag_succ_of_mem (N : ℕ) (t : ℕ → ℕ → M) (L c : ℕ) (h : L ≤ c ∧ c < L + N) :
    diag N t (L + 1) c = diag N t L c + t (c - L) L := by
  unfold diag; rw [sum_range_succ, if_pos h]

/-- and nothing elsewhere. -/
theorem diag_succ_of_not_mem (N : ℕ) (t : ℕ → ℕ → M) (L c : ℕ) (h : ¬(L ≤ c ∧ c < L + N)) :
    diag N t (L + 1) c = diag N t L c := by
  unfold diag; rw [sum_range_succ, if_neg h, add_zero]

/-- The same sum over the bands as a finite type. -/
theorem diag_eq_sum_fin (N : ℕ) (t : ℕ → ℕ → M) (L c : ℕ) :
    diag N t L c = ∑ k : Fin L, if k.val ≤ c ∧ c < k.val + N then t (c - k.val) k.val else 0 := by
  unfold diag; rw [Finset.sum_range]

end Cert.Diagonal
-- ==== Proof.Image.lean ====
/-
  The dispersed, coded image: the one function both programs are compared with.
  For a spectral cube `x[0, m, n, l]` and a coded aperture `ca[0, m, n, 0]`, band `l` of row `m` is masked by the
  aperture and shifted `l` columns to the right; the image at `(m, c)` is the sum of  x[0, m, c - l, l] · ca[0, m, c - l, 0]
  over the bands `l` with `l ≤ c < l + 1024`.
-/
import proofs.«144922_j22230750724218_1_alg».proof.Proof.LibDiagonal
import Idealize.ShloMosaic.Lib.ValueIdx

namespace Cert.Image

open Idealize.ShloMosaic Idealize.ShloMosaic.ValueIdx Cert.Diagonal

/-- The masked cube at row `r`, source column `n` and band `l` (zero outside the cube). -/
noncomputable def coded (x : (⟨4, ![1, 1024, 1024, 64]⟩ : Shape).Idx → EReal) (ca : (⟨4, ![1, 1024, 1024, 1]⟩ : Shape).Idx → EReal)
    (r : Fin 1024) (n l : ℕ) : EReal :=
  if h : n < 1024 ∧ l < 64 then
    x (ix4 (0 : Fin 1) r ⟨n, h.1⟩ ⟨l, h.2⟩) * ca (ix4 (0 : Fin 1) r ⟨n, h.1⟩ (0 : Fin 1))
  else 0

/-- The image: at `(r, c)` the anti-diagonal sum of the masked cube's row `r`. -/
noncomputable def image (x : (⟨4, ![1, 1024, 1024, 64]⟩ : Shape).Idx → EReal) (ca : (⟨4, ![1, 1024, 1024, 1]⟩ : Shape).Idx → EReal) :
    (⟨2, ![1024, 1087]⟩ : Shape).Idx → EReal :=
  fun i => diag 1024 (coded x ca (i 0)) 64 (i 1).val

end Cert.Image
-- ==== Proof.Bands.lean ====
/-
  The kernel body, read as a value over the extended reals.  Along the chain of band stores, a column inside band l's
  window gains that band's term  x[p, q - l, l] · ca[p, q - l]  and a column outside it keeps what it had; so, read at
  row p and column q, the block the chain leaves is the sum of those terms over the bands l with l ≤ q < l + 1024:
  the anti-diagonal sum.
-/
import proofs.«144922_j22230750724218_1_alg».proof.Proof.Image
import proofs.«144922_j22230750724218_1_alg».proof.Proof.ChainIdeal
import Idealize.ShloMosaic.Lib.Pipeline.Value
import Idealize.ShloMosaic.Lib.ValueIdx
import Idealize.ShloMosaic.PureOps.Ideal.Laws

noncomputable section

namespace Cert.KernelIdeal.Bands

open Cert.KernelIdeal Cert.KernelIdeal.Gen Idealize.ShloMosaic Idealize.ShloMosaic.ValueIdx Cert.Diagonal

/-! ## The chain's value over the extended reals -/

section Value

/-- A [64, 1024, 1] slab seen as a [64, 1024] matrix, read at row `p` and column `n`, is its entry `(p, n, 0)`. -/
theorem squeeze_apply {α : Type} (w : S64x1024x1.Idx → α) (h : S64x1024x1.ShapeCasts S64x1024) (p : Fin 64) (n : Fin 1024) :
    shapeCast S64x1024 w h (ix2 p n) = w (ix3 p n (0 : Fin 1)) :=
  shapeCast_apply w h (ix2 p n) (ix3 p n (0 : Fin 1)) (by
    rw [Shape.rowMajor_val_three, Shape.rowMajor_val_two]
    show (p.val * 1024 + n.val) * 1 + 0 = p.val * 1024 + n.val
    omega)

/-- One band's store read at row `p` and window column `n`. -/
theorem bandSum_apply (mask : FVec Ideal S64x1024 .f32) (xl : FVec Ideal S64x1024x1 .f32) (ol : FVec Ideal S64x1024 .f32)
    (p : Fin 64) (n : Fin 1024) :
    bandSum mask xl ol (ix2 p n) = ol (ix2 p n) + xl (ix3 p n (0 : Fin 1)) * mask (ix2 p n) := by
  unfold bandSum
  rw [addf_apply, mulf_apply, shapeCast_self, squeeze_apply]

variable (v : View sig .tc .vmem S64x1087 .f32) (mask : FVec Ideal S64x1024 .f32)
  (band : (l : ℕ) → l < 64 → Vec Ideal S64x1024x1 .f32)

/-- What band `l` contributes at row `p` from source column `n`: the slab's entry times the mask's. -/
def term (p : Fin 64) (n l : ℕ) : EReal :=
  if h : n < 1024 ∧ l < 64 then band l h.2 (ix3 p ⟨n, h.1⟩ (0 : Fin 1)) * mask (ix2 p ⟨n, h.1⟩) else 0

/-- After the first `l` bands the block holds, at row `p` and column `q`, the anti-diagonal sum over those bands:
    by induction along the chain, a column inside band `l`'s window gaining that band's term, a column outside it
    keeping what it had. -/
theorem Chain.canon_apply {l : ℕ} {L : List (View.Piece (Elt Ideal) S64x1087 .f32)} (h : Chain v mask band l L) :
    ∀ (p : Fin 64) (q : Fin 1087), View.canon L (ix2 p q) = diag 1024 (term mask band p) l q.val := by
  induction h with
  | zero =>
    intro p q
    rw [View.canon_unit_zero zero2, diag_zero]
    show Ideal.ofBits .f32 0x00000000#32 = 0
    exact Ideal.ofBits_zero_f32
  | step l hl L hL ih =>
    intro p q
    by_cases hq : l ≤ q.val ∧ q.val < l + 1024
    · have hn : q.val - l < 1024 := by omega
      have e : (ix2 p q : S64x1087.Idx) = (win l hl).emb (ix2 p (⟨q.val - l, hn⟩ : Fin 1024) : S64x1024.Idx) := by
        funext a
        apply Fin.ext
        match a with
        | ⟨0, _⟩ => show p.val = 0 + 1 * p.val; omega
        | ⟨1, _⟩ => show q.val = l + 1 * (q.val - l); omega
      rw [e, View.canon_cons_emb]
      refine (bandSum_apply mask (band l hl) _ p ⟨q.val - l, hn⟩).trans ?_
      rw [View.readCov_eq_canon', diag_succ_of_mem _ _ _ _ hq]
      show View.canon L ((win l hl).emb (ix2 p (⟨q.val - l, hn⟩ : Fin 1024) : S64x1024.Idx)) + _ = _
      rw [← e, ih p q]
      unfold term
      rw [dif_pos ⟨hn, hl⟩]
    · have hnm : (ix2 p q : S64x1087.Idx) ∉ (win l hl).set := by
        rw [Rect.mem_set_unit]
        intro hm
        have h1 := hm (1 : Fin 2)
        exact hq ⟨h1.1, h1.2⟩
      rw [View.canon_cons_of_not_mem ⟨win l hl, _⟩ L hnm, diag_succ_of_not_mem _ _ _ _ hq, ih p q]

end Value

/-! ## The body's block -/

/-- What the body leaves in its output block, at row `p` and column `q`, from the cube's block `x0` and the aperture's
    block `x1` it was given: the sum of `x0[p, q - l, l] · x1[p, q - l, 0]` over the bands `l` with `l ≤ q < l + 1024`. -/
theorem canon_run (c : Dev nD) (i : grid0.Coords) (a1 : Memref sig .tc .vmem S64x1024x64 .f32) (h1 : a1.IsWhole)
    (a2 : Memref sig .tc .vmem S64x1024x1 .f32) (h2 : a2.IsWhole) (a3 : Memref sig .tc .vmem S64x1087 .f32) (h3 : a3.IsWhole)
    (x0 : Vec Ideal S64x1024x64 .f32) (x1 : Vec Ideal S64x1024x1 .f32) (p : Fin 64) (q : Fin 1087) :
    View.canon (kernelRun0_A (F := Ideal) c i a1 h1 a2 h2 a3 h3 x0 x1).1 (ix2 p q)
      = diag 1024 (fun n l => if h : n < 1024 ∧ l < 64 then
          x0 (ix3 p ⟨n, h.1⟩ ⟨l, h.2⟩) * x1 (ix3 p ⟨n, h.1⟩ (0 : Fin 1)) else (0 : EReal)) 64 q.val := by
  rw [(chain_run (F := Ideal) c i a1 h1 a2 h2 a3 h3 x0 x1).canon_apply]
  congr 1
  funext n l
  unfold term
  by_cases h : n < 1024 ∧ l < 64
  · rw [dif_pos h, dif_pos h]
    have eb : View.readAt (Elt Ideal) a1.view (slab l h.2).toLoadRect (h1.unread x0)
        (ix3 p (⟨n, h.1⟩ : Fin 1024) (0 : Fin 1)) = x0 (ix3 p ⟨n, h.1⟩ ⟨l, h.2⟩) := by
      show a1.view.read (Elt Ideal) (h1.unread x0)
        ((slab l h.2).toLoadRect.idx (ix3 p (⟨n, h.1⟩ : Fin 1024) (0 : Fin 1))) = _
      rw [h1.read_unread]
      congr 1
      funext a
      apply Fin.ext
      match a with
      | ⟨0, _⟩ => show 0 + 1 * p.val = p.val; omega
      | ⟨1, _⟩ => show 0 + 1 * n = n; omega
      | ⟨2, _⟩ => show l + 1 * 0 = l; omega
    have em : k0_pay3 (View.readAt (Elt Ideal) a2.view
        (Rect.unit ![0, 0, 0] S64x1024x1.size inb_S64x1024x1_S64x1024x1_0_0_0).toLoadRect (h2.unread x1))
        (ix2 p (⟨n, h.1⟩ : Fin 1024)) = x1 (ix3 p ⟨n, h.1⟩ (0 : Fin 1)) := by
      unfold k0_pay3
      refine (squeeze_apply _ _ p ⟨n, h.1⟩).trans ?_
      show a2.view.read (Elt Ideal) (h2.unread x1)
        ((Rect.unit ![0, 0, 0] S64x1024x1.size inb_S64x1024x1_S64x1024x1_0_0_0).toLoadRect.idx
          (ix3 p (⟨n, h.1⟩ : Fin 1024) (0 : Fin 1))) = _
      rw [h2.read_unread]
      congr 1
      funext a
      apply Fin.ext
      match a with
      | ⟨0, _⟩ => show 0 + 1 * p.val = p.val; omega
      | ⟨1, _⟩ => show 0 + 1 * n = n; omega
      | ⟨2, _⟩ => show 0 + 1 * 0 = 0; omega
    exact congrArg₂ (· * ·) eb em
  · rw [dif_neg h, dif_neg h]

end Cert.KernelIdeal.Bands

end
-- ==== Proof.KernelSide.lean ====
/-
  The idealized kernel, read as a value.  Grid point t works on rows 64 t, …, 64 t + 63: its cube block is
  x[0, 64 t + p, n, l], its aperture block ca[0, 64 t + p, n, 0] (the host drops the leading unit axis of both before
  the call), and the body leaves in its output block, at (p, q), the anti-diagonal sum of the masked cube's row
  64 t + p (Bands.lean).  So what point t writes back is block t of the dispersed, coded image; the sixteen blocks
  tile the [1024, 1087] array; and the host's last line puts the two unit axes back around it.
-/
import proofs.«144922_j22230750724218_1_alg».proof.Proof.Bands
import proofs.«144922_j22230750724218_1_alg».proof.Proof.FrameIdeal
import Idealize.ShloMosaic.Lib.Pipeline.Value
import Idealize.ShloMosaic.Lib.StableHlo.Run
import Idealize.ShloMosaic.Lib.Tactic

noncomputable section

namespace Cert.KernelIdeal.Dispersed

open Cert.KernelIdeal Cert.KernelIdeal.Gen Cert.KernelIdeal.GenP Idealize.ShloMosaic Idealize.ShloMosaic.TcCoe Idealize.SL.Sem
open Idealize.ShloMosaic.ValueIdx Cert.Diagonal Cert.Image
open Idealize.ShloMosaic.Pipeline (Dat)

/-! ## One block, over variables -/

/-- If a cube block and an aperture block are rows `64 T + p` of arrays that are the arguments with their leading
    unit axis dropped, the anti-diagonal sum over the blocks at `(p, q)` is the image at `(64 T + p, q)`. -/
theorem block_eq (x : (⟨4, ![1, 1024, 1024, 64]⟩ : Shape).Idx → EReal) (ca : (⟨4, ![1, 1024, 1024, 1]⟩ : Shape).Idx → EReal)
    (X : S1024x1024x64.Idx → EReal) (CA : S1024x1024x1.Idx → EReal)
    (hX : ∀ (r : Fin 1024) (n : Fin 1024) (l : Fin 64), X (ix3 r n l) = x (ix4 (0 : Fin 1) r n l))
    (hCA : ∀ (r : Fin 1024) (n : Fin 1024), CA (ix3 r n (0 : Fin 1)) = ca (ix4 (0 : Fin 1) r n (0 : Fin 1)))
    (x0 : S64x1024x64.Idx → EReal) (x1 : S64x1024x1.Idx → EReal) (T : ℕ) (hT : T < 16)
    (h0 : ∀ (p : Fin 64) (n : Fin 1024) (l : Fin 64),
      x0 (ix3 p n l) = X (ix3 (⟨T * 64 + p.val, by have := p.isLt; omega⟩ : Fin 1024) n l))
    (h1 : ∀ (p : Fin 64) (n : Fin 1024),
      x1 (ix3 p n (0 : Fin 1)) = CA (ix3 (⟨T * 64 + p.val, by have := p.isLt; omega⟩ : Fin 1024) n (0 : Fin 1)))
    (p : Fin 64) (q : Fin 1087) :
    diag 1024 (fun n l => if h : n < 1024 ∧ l < 64 then
        x0 (ix3 p ⟨n, h.1⟩ ⟨l, h.2⟩) * x1 (ix3 p ⟨n, h.1⟩ (0 : Fin 1)) else (0 : EReal)) 64 q.val
      = image x ca (ix2 (⟨T * 64 + p.val, by have := p.isLt; omega⟩ : Fin 1024) q) := by
  show _ = diag 1024 (coded x ca (⟨T * 64 + p.val, _⟩ : Fin 1024)) 64 q.val
  congr 1
  funext n l
  unfold coded
  by_cases h : n < 1024 ∧ l < 64
  · rw [dif_pos h, dif_pos h, h0, h1, hX, hCA]
  · rw [dif_neg h, dif_neg h]

/-! ## The body's block -/

/-- What the body leaves in its output block, read at `(p, q)`. -/
theorem out_apply (c : Dev nD) (i : grid0.Coords) (a1 : Memref sig .tc .vmem S64x1024x64 .f32) (h1 : a1.IsWhole)
    (a2 : Memref sig .tc .vmem S64x1024x1 .f32) (h2 : a2.IsWhole) (a3 : Memref sig .tc .vmem S64x1087 .f32) (h3 : a3.IsWhole)
    (x0 : Vec Ideal S64x1024x64 .f32) (x1 : Vec Ideal S64x1024x1 .f32) (p : Fin 64) (q : Fin 1087) :
    out0_A_2 (F := Ideal) c i a1 h1 a2 h2 a3 h3 x0 x1 (ix2 p q)
      = diag 1024 (fun n l => if h : n < 1024 ∧ l < 64 then
          x0 (ix3 p ⟨n, h.1⟩ ⟨l, h.2⟩) * x1 (ix3 p ⟨n, h.1⟩ (0 : Fin 1)) else (0 : EReal)) 64 q.val := by
  unfold out0_A_2
  rw [View.read_writes_junk_eq_canon]
  exact Bands.canon_run c i a1 h1 a2 h2 a3 h3 x0 x1 p q

variable (m : (ℓ : Loc nD τ sig) → Buf (Elt Ideal) ℓ) (ρ : Dev nD → PrngReg)

/-! ## The arrays the region finds -/

/-- The cube as the region finds it: the argument with its leading unit axis dropped. -/
theorem V_cube (c : Dev nD) (r : Fin 1024) (n : Fin 1024) (l : Fin 64) :
    (V m c main_v0 : S1024x1024x64.Idx → EReal) (ix3 r n l)
      = m ((c : Thread nD τ).loc main_arg0) (ix4 (0 : Fin 1) r n l) := by
  have e : (V m c main_v0 : S1024x1024x64.Idx → EReal)
      = shapeCast S1024x1024x64 (m ((c : Thread nD τ).loc main_arg0)) shapeCasts_S1x1024x1024x64_S1024x1024x64 := by
    show StableHlo.after hostOps0 (fun b => m (c, b)) (Proc.devRef .tc main_v0) = _
    after_results <;> rfl
  rw [e]
  exact shapeCast_apply _ _ (ix3 r n l) (ix4 (0 : Fin 1) r n l) (by
    rw [Shape.rowMajor_val_four, Shape.rowMajor_val_three]
    show ((0 * 1024 + r.val) * 1024 + n.val) * 64 + l.val = (r.val * 1024 + n.val) * 64 + l.val
    omega)

/-- The aperture as the region finds it, likewise. -/
theorem V_aperture (c : Dev nD) (r : Fin 1024) (n : Fin 1024) :
    (V m c main_v1 : S1024x1024x1.Idx → EReal) (ix3 r n (0 : Fin 1))
      = m ((c : Thread nD τ).loc main_arg1) (ix4 (0 : Fin 1) r n (0 : Fin 1)) := by
  have e : (V m c main_v1 : S1024x1024x1.Idx → EReal)
      = shapeCast S1024x1024x1 (m ((c : Thread nD τ).loc main_arg1)) shapeCasts_S1x1024x1024x1_S1024x1024x1 := by
    show StableHlo.after hostOps0 (fun b => m (c, b)) (Proc.devRef .tc main_v1) = _
    after_results <;> rfl
  rw [e]
  exact shapeCast_apply _ _ (ix3 r n (0 : Fin 1)) (ix4 (0 : Fin 1) r n (0 : Fin 1)) (by
    rw [Shape.rowMajor_val_four, Shape.rowMajor_val_three]
    show ((0 * 1024 + r.val) * 1024 + n.val) * 1 + 0 = (r.val * 1024 + n.val) * 1 + 0
    omega)

/-! ## What a grid point writes back -/

/-- The three index maps over the sixteen grid points: block `t` on the row axis, block 0 on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The dispersed, coded image of the launch arguments, as contents of the region's result array. -/
abbrev result (c : Dev nD) : S1024x1087.Idx → EReal :=
  image (m ((c : Thread nD τ).loc main_arg0)) (m ((c : Thread nD τ).loc main_arg1))

/-- Point `t` writes back block `t` of the image. -/
theorem flushed_eq (c : Dev nD) (t : Fin cfg0.N) :
    (dats m 0 c).flushed 2 t = ((cfg0.win 2).blk t).view.read (Elt Ideal) (result m c) := by
  have hN : cfg0.N = 16 := N_0
  have ht : t.val < 16 := hN ▸ t.isLt
  obtain ⟨e00, e01, e02, e10, e11, e12, e20, e21⟩ := idx_facts t
  show (cfg0.win 2).cut (grid0.coords t) ((dats m 0 c).after 2 t) = _
  rw [after0_2]
  unfold outsAt0
  funext y
  show out0_A_2 (F := Ideal) c (grid0.coords t) (ms0_0 t) (hs0_0 t) (ms0_1 t) (hs0_1 t) (ms0_2 t) (hs0_2 t)
      (iblk m c 0 t) (iblk m c 1 t) y = result m c (((cfg0.win 2).blk t).view.emb y)
  obtain ⟨p, q, rfl⟩ : ∃ (p : Fin 64) (q : Fin 1087), y = ix2 p q :=
    ⟨⟨(y 0).val, (y 0).isLt⟩, ⟨(y 1).val, (y 1).isLt⟩, by
      funext a
      match a with
      | ⟨0, _⟩ => rfl
      | ⟨1, _⟩ => rfl⟩
  have eo : ((cfg0.win 2).blk t).view.emb (ix2 p q)
      = ix2 (⟨t.val * 64 + p.val, by have := p.isLt; omega⟩ : Fin 1024) q := by
    funext a
    apply Fin.ext
    match a with
    | ⟨0, _⟩ => show win0_2.index t (0 : Fin 2) * 64 + 1 * p.val = t.val * 64 + p.val; rw [e20]; omega
    | ⟨1, _⟩ => show win0_2.index t (1 : Fin 2) * 1087 + 1 * q.val = q.val; rw [e21]; omega
  rw [eo]
  refine (out_apply c _ _ _ _ _ _ _ _ _ p q).trans ?_
  refine block_eq _ _ (V m c main_v0) (V m c main_v1) (V_cube m c) (V_aperture m c) _ _ t.val ht ?_ ?_ p q
  · intro p n l
    show V m c main_v0 (((cfg0.win 0).blk t).view.emb (ix3 p n l)) = _
    refine congrArg (V m c main_v0) ?_
    funext a
    apply Fin.ext
    match a with
    | ⟨0, _⟩ => show win0_0.index t (0 : Fin 3) * 64 + 1 * p.val = t.val * 64 + p.val; rw [e00]; omega
    | ⟨1, _⟩ => show win0_0.index t (1 : Fin 3) * 1024 + 1 * n.val = n.val; rw [e01]; omega
    | ⟨2, _⟩ => show win0_0.index t (2 : Fin 3) * 64 + 1 * l.val = l.val; rw [e02]; omega
  · intro p n
    show V m c main_v1 (((cfg0.win 1).blk t).view.emb (ix3 p n (0 : Fin 1))) = _
    refine congrArg (V m c main_v1) ?_
    funext a
    apply Fin.ext
    match a with
    | ⟨0, _⟩ => show win0_1.index t (0 : Fin 3) * 64 + 1 * p.val = t.val * 64 + p.val; rw [e10]; omega
    | ⟨1, _⟩ => show win0_1.index t (1 : Fin 3) * 1024 + 1 * n.val = n.val; rw [e11]; omega
    | ⟨2, _⟩ => show win0_1.index t (2 : Fin 3) * 1 + 1 * 0 = 0; rw [e12]

/-! ## The array after the run -/

/-- An entry of the array is in point `t`'s block iff each coordinate is in the block's range on its axis. -/
theorem mem_blk (t : Fin cfg0.N) (i : S1024x1087.Idx) :
    i ∈ ((cfg0.win 2).blk t).view.set ↔ ∀ a : Fin 2, win0_2.index t a * S64x1087.size a ≤ (i a).val
      ∧ (i a).val < win0_2.index t a * S64x1087.size a + S64x1087.size a := by
  show i ∈ ((View.whole main_v2).slice (win0_2.rect t)).set ↔ _
  rw [View.set_slice_whole, Rect.mem_set_unit]
  exact Iff.rfl

/-- Row `r` is in the block of point `r / 64`: the sixteen blocks cover the array. -/
theorem covered (i : S1024x1087.Idx) :
    ∃ t : Fin cfg0.N, (cfg0.win 2).flush t = true ∧ i ∈ ((cfg0.win 2).blk t).view.set := by
  have hN : cfg0.N = 16 := N_0
  have hi0 : (i 0).val < 1024 := (i 0).isLt
  have hi1 : (i 1).val < 1087 := (i 1).isLt
  have htN : (i 0).val / 64 < cfg0.N := by rw [hN]; omega
  obtain ⟨-, -, -, -, -, -, e20, e21⟩ := idx_facts ⟨(i 0).val / 64, htN⟩
  refine ⟨⟨(i 0).val / 64, htN⟩, flush0_2 _, ?_⟩
  rw [mem_blk]
  intro a
  match a with
  | ⟨0, _⟩ =>
    show win0_2.index ⟨(i 0).val / 64, htN⟩ (0 : Fin 2) * 64 ≤ (i 0).val
      ∧ (i 0).val < win0_2.index ⟨(i 0).val / 64, htN⟩ (0 : Fin 2) * 64 + 64
    rw [e20]
    show (i 0).val / 64 * 64 ≤ (i 0).val ∧ (i 0).val < (i 0).val / 64 * 64 + 64
    omega
  | ⟨1, _⟩ =>
    show win0_2.index ⟨(i 0).val / 64, htN⟩ (1 : Fin 2) * 1087 ≤ (i 1).val
      ∧ (i 1).val < win0_2.index ⟨(i 0).val / 64, htN⟩ (1 : Fin 2) * 1087 + 1087
    rw [e21]
    omega

/-- So the region's result array ends holding the image. -/
theorem final (c : Dev nD) : (dats m 0 c).arrAt 2 cfg0.N = result m c :=
  (dats m 0 c).arrAt_eq_of_cover 2 (result m c) (fun t _ => flushed_eq m c t) covered

/-! ## The host's last line and the run -/

/-- After the region the host puts a unit axis before and after the array's two. -/
theorem tail_eq (c : Dev nD) :
    Pipeline.afterTail₀ cfgs (dats m) 0 (V0 m) [hostOps1] c main_v3
      = broadcastInDim S1x1024x1087x1 ![1, 2] bcast_S1024x1087_S1x1024x1087x1_1_2 (result m c) := by
  unfold Pipeline.afterTail₀
  show StableHlo.after hostOps1 _ (Proc.devRef .tc main_v3) = _
  after_results
  refine congrArg _ ?_
  exact (Pipeline.withArrays_arr spec0 launch0.win.arr_inj c _ _ 2).trans (final m c)

/-- The run, read: the result at the image with its unit axes, the arguments unchanged. -/
theorem run : θ_run defs (onTc (τ := τ) (main (F := Ideal))) ⟨m, fun _ => 0, ρ⟩ fun r => ∀ c : Dev nD,
      r.2.mem ((c : Thread nD τ).loc main_v3)
        = broadcastInDim S1x1024x1087x1 ![1, 2] bcast_S1024x1087_S1x1024x1087x1_1_2 (result m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Dispersed

end
-- ==== Proof.RefSide.lean ====
/-
  The reference, read as a value.  Its scatter adds the update  (x · ca)[m, n, l]  into the zero image at row m and
  column  table[n, l] = n + l  (the table's wrap of negative words never fires: n + l is a small non-negative number).
  So the updates landing at (r, c) are exactly the (r, n, l) with n + l = c, one per band l with l ≤ c < l + 1024, and
  their sum is the anti-diagonal sum of the masked cube's row r.
-/
import proofs.«144922_j22230750724218_1_alg».proof.Proof.Image
import proofs.«144922_j22230750724218_1_alg».proof.Proof.Gen.ReferenceIdeal.Read
import Idealize.ShloMosaic.Lib.ValueIdx
import Idealize.ShloMosaic.PureOps.Ideal.Laws

noncomputable section

namespace Cert.ReferenceIdeal.Scatter

open Cert.ReferenceIdeal Cert.ReferenceIdeal.Gen Cert.ReferenceIdeal.Read Idealize.ShloMosaic Idealize.ShloMosaic.ValueIdx
open Cert.Diagonal Cert.Image

/-! ## The index table -/

/-- A small number's 32-bit word is not negative, -/
theorem not_neg_small (s : ℕ) (hs : s < 2048) : IntOp.cmpi .slt (BitVec.ofNat 32 s) 0#32 = 0#1 := by
  show BitVec.ofBool ((BitVec.ofNat 32 s).slt 0#32) = 0#1
  rw [BitVec.slt_zero_eq_msb, BitVec.msb_eq_decide, BitVec.toNat_ofNat]
  have h : ¬(2 ^ (32 - 1) ≤ s % 2 ^ 32) := by omega
  rw [decide_eq_false h]
  rfl

/-- and read signed it is the number. -/
theorem toInt_small (s : ℕ) (hs : s < 2048) : (BitVec.ofNat 32 s).toInt = (s : Int) := by
  have h : (BitVec.ofNat 32 s).toNat = s := by rw [BitVec.toNat_ofNat]; omega
  rw [BitVec.toInt_eq_toNat_of_lt (by rw [h]; omega), h]

/-- The table at `(n, l)` holds the word of `n + l`: the two iotas spread and added, the wrap of a negative word
    never taken. -/
theorem table_apply (n : Fin 1024) (l : Fin 64) :
    val_main_v16 (F := Ideal) (ix3 n l (0 : Fin 1)) = BitVec.ofNat 32 (n.val + l.val) := by
  rw [val_main_v16_apply, val_main_v15_apply, val_main_v12_apply, val_main_v14_apply, val_main_v9_apply,
    val_main_v7_apply, val_main_v8_apply, val_main_v4_apply, val_main_v6_apply, val_main_v3_apply, val_main_v5_apply,
    val_main_v11_apply, val_main_c_apply, val_main_v13_apply, val_main_c_0_apply]
  show Scalar.select (IntOp.cmpi .slt (IntOp.addi (BitVec.ofNat 32 n.val) (BitVec.ofNat 32 l.val)) 0#32)
      (IntOp.addi (IntOp.addi (BitVec.ofNat 32 n.val) (BitVec.ofNat 32 l.val)) 1087#32)
      (IntOp.addi (BitVec.ofNat 32 n.val) (BitVec.ofNat 32 l.val)) = _
  rw [show IntOp.addi (BitVec.ofNat 32 n.val) (BitVec.ofNat 32 l.val) = BitVec.ofNat 32 (n.val + l.val) from
    (BitVec.ofNat_add _ _).symm]
  rw [not_neg_small _ (by omega), select_zero]

/-! ## Where an update lands -/

/-- The scatter's dimension numbers: operand [1024, 1087], table [1024, 64, 1], updates [1024, 1024, 64]; the
    updates' axis 0 is the window axis (the image's rows), the table's word is the image's column. -/
abbrev dims : ScatterDims S1024x1087 S1024x64x1 S1024x1024x64 := scatter_S1024x1087_S1024x64x1_S1024x1024x64_0_1_1_2

/-- The update `(m, n, l)` reads the table at `(n, l, 0)`. -/
theorem siIdx_eq (j : S1024x1024x64.Idx) (h : 0 < dims.scatterDimsToOperandDims.length) :
    dims.siIdx j ⟨0, h⟩
      = ix3 (⟨(j 1).val, (j 1).isLt⟩ : Fin 1024) (⟨(j 2).val, (j 2).isLt⟩ : Fin 64) (0 : Fin 1) := by
  funext b
  match b with
  | ⟨0, _⟩ => rfl
  | ⟨1, _⟩ => rfl
  | ⟨2, _⟩ => rfl

/-- Where update `(m, n, l)` lands: row `m`, column `n + l`. -/
def target (j : S1024x1024x64.Idx) : S1024x1087.Idx :=
  ix2 (j 0) (⟨(j 1).val + (j 2).val, by
    have h1 : (j 1).val < 1024 := (j 1).isLt
    have h2 : (j 2).val < 64 := (j 2).isLt
    omega⟩ : Fin 1087)

theorem land (j : S1024x1024x64.Idx) (a : Fin 2) :
    dims.start j (val_main_v16 (F := Ideal)) a + dims.window j a = ((target j a).val : Int) := by
  have h1 : (j 1).val < 1024 := (j 1).isLt
  have h2 : (j 2).val < 64 := (j 2).isLt
  match a with
  | ⟨0, _⟩ =>
    show (0 : Int) + ((j 0).val : Int) = ((j 0).val : Int)
    omega
  | ⟨1, _⟩ =>
    show (val_main_v16 (F := Ideal) (dims.siIdx j ⟨0, by decide⟩)).toInt + ((0 : ℕ) : Int) = (((j 1).val + (j 2).val : ℕ) : Int)
    rw [siIdx_eq, table_apply, toInt_small _ (by omega)]
    show (((j 1).val + (j 2).val : ℕ) : Int) + ((0 : ℕ) : Int) = (((j 1).val + (j 2).val : ℕ) : Int)
    omega

theorem resultIdx_eq (j : S1024x1024x64.Idx) :
    dims.resultIdx? j (val_main_v16 (F := Ideal)) = some (target j) := by
  have h : ∀ a, 0 ≤ dims.start j (val_main_v16 (F := Ideal)) a + dims.window j a
      ∧ dims.start j (val_main_v16 (F := Ideal)) a + dims.window j a < S1024x1087.size a := fun a => by
    rw [land]
    exact ⟨Int.natCast_nonneg _, by exact_mod_cast (target j a).isLt⟩
  unfold ScatterDims.resultIdx?
  rw [dif_pos h]
  congr 1
  funext a
  apply Fin.ext
  show (dims.start j (val_main_v16 (F := Ideal)) a + dims.window j a).toNat = (target j a).val
  rw [land]
  exact Int.toNat_natCast _

/-- An update lands at `(r, c)` exactly when it is in row `r` and its source column and band add up to `c`. -/
theorem lands_iff (j : S1024x1024x64.Idx) (r : Fin 1024) (c : Fin 1087) :
    dims.resultIdx? j (val_main_v16 (F := Ideal)) = some (ix2 r c)
      ↔ (j 0).val = r.val ∧ (j 1).val + (j 2).val = c.val := by
  rw [resultIdx_eq, Option.some.injEq]
  constructor
  · intro h
    exact ⟨congrArg (fun i : S1024x1087.Idx => (i 0).val) h, congrArg (fun i : S1024x1087.Idx => (i 1).val) h⟩
  · rintro ⟨h0, h1⟩
    funext a
    apply Fin.ext
    match a with
    | ⟨0, _⟩ => exact h0
    | ⟨1, _⟩ => exact h1

/-! ## The updates and the scatter's sum -/

/-- The update at `(m, n, l)` is the masked cube's entry: the aperture spread along the bands, the product, the
    leading unit axis dropped. -/
theorem update_apply (x : S1x1024x1024x64.Idx → EReal) (ca : S1x1024x1024x1.Idx → EReal)
    (m : Fin 1024) (n : Fin 1024) (l : Fin 64) :
    val_main_v2 (F := Ideal) x ca (ix3 m n l)
      = x (ix4 (0 : Fin 1) m n l) * ca (ix4 (0 : Fin 1) m n (0 : Fin 1)) := by
  have e2 : idx_main_v2 (ix3 m n l) = ix4 (0 : Fin 1) m n l := by
    funext a
    apply Fin.ext
    match a with
    | ⟨0, _⟩ => rfl
    | ⟨1, _⟩ => show ((m.val * 1024 + n.val) * 64 + l.val) / 65536 % 1024 = m.val; omega
    | ⟨2, _⟩ => show ((m.val * 1024 + n.val) * 64 + l.val) / 64 % 1024 = n.val; omega
    | ⟨3, _⟩ => show ((m.val * 1024 + n.val) * 64 + l.val) % 64 = l.val; omega
  have e0 : idx_main_v0 (ix4 (0 : Fin 1) m n l) = ix4 (0 : Fin 1) m n (0 : Fin 1) := by
    funext a
    apply Fin.ext
    match a with
    | ⟨0, _⟩ => rfl
    | ⟨1, _⟩ => rfl
    | ⟨2, _⟩ => rfl
    | ⟨3, _⟩ => rfl
  rw [val_main_v2_apply, val_main_v1_apply, val_main_v0_apply, e2, e0]
  rfl

/-- The scatter read at `(r, c)`: the zero it starts from plus the updates landing there, and these are one per band
    `l` with `l ≤ c < l + 1024`, the update `(r, c - l, l)`: the anti-diagonal sum of the masked cube's row `r`. -/
theorem scatter_apply (x : S1x1024x1024x64.Idx → EReal) (ca : S1x1024x1024x1.Idx → EReal) (r : Fin 1024) (c : Fin 1087) :
    val_main_v17 (F := Ideal) x ca (ix2 r c) = diag 1024 (coded x ca r) 64 c.val := by
  show Ideal.hostScatterAdd dims (val_main_v10 (F := Ideal)) (val_main_v16 (F := Ideal))
    (val_main_v2 (F := Ideal) x ca) (ix2 r c) = _
  unfold Ideal.hostScatterAdd
  rw [val_main_v10_apply, val_main_cst_apply]
  show Ideal.ofBits .f32 0x00000000#32 + _ = _
  rw [Ideal.ofBits_zero_f32, zero_add, diag_eq_sum_fin, ← Finset.sum_filter]
  refine Finset.sum_bij' (fun j _ => (⟨(j 2).val, (j 2).isLt⟩ : Fin 64))
    (fun l hl => ix3 r (⟨c.val - l.val, by have := (Finset.mem_filter.mp hl).2; omega⟩ : Fin 1024) l) ?_ ?_ ?_ ?_ ?_
  · intro j hj
    have h := (lands_iff j r c).mp (Finset.mem_filter.mp hj).2
    have h1 : (j 1).val < 1024 := (j 1).isLt
    refine Finset.mem_filter.mpr ⟨Finset.mem_univ _, ?_⟩
    show (j 2).val ≤ c.val ∧ c.val < (j 2).val + 1024
    omega
  · intro l hl
    have h := (Finset.mem_filter.mp hl).2
    refine Finset.mem_filter.mpr ⟨Finset.mem_univ _, (lands_iff _ r c).mpr ⟨rfl, ?_⟩⟩
    show (c.val - l.val) + l.val = c.val
    omega
  · intro j hj
    have h := (lands_iff j r c).mp (Finset.mem_filter.mp hj).2
    funext a
    apply Fin.ext
    match a with
    | ⟨0, _⟩ => exact h.1.symm
    | ⟨1, _⟩ => show c.val - (j 2).val = (j 1).val; omega
    | ⟨2, _⟩ => rfl
  · intro l hl
    rfl
  · intro j hj
    have h := (lands_iff j r c).mp (Finset.mem_filter.mp hj).2
    obtain ⟨m', n', l', rfl⟩ : ∃ (m' : Fin 1024) (n' : Fin 1024) (l' : Fin 64), j = ix3 m' n' l' :=
      ⟨j 0, j 1, j 2, eq_ix3 j⟩
    have hm : m'.val = r.val := h.1
    have hn : n'.val + l'.val = c.val := h.2
    obtain rfl : m' = r := Fin.ext hm
    have hlt : c.val - l'.val < 1024 ∧ l'.val < 64 := ⟨by have := n'.isLt; omega, l'.isLt⟩
    have en : n' = (⟨c.val - l'.val, hlt.1⟩ : Fin 1024) := Fin.ext (by show n'.val = c.val - l'.val; omega)
    subst en
    rw [update_apply]
    show _ = coded x ca m' (c.val - l'.val) l'.val
    unfold coded
    rw [dif_pos hlt]

/-- So the scatter's result is the dispersed, coded image. -/
theorem scatter_eq_image (x : S1x1024x1024x64.Idx → EReal) (ca : S1x1024x1024x1.Idx → EReal) :
    val_main_v17 (F := Ideal) x ca = image x ca := by
  funext i
  obtain ⟨r, c, rfl⟩ : ∃ (r : Fin 1024) (c : Fin 1087), i = ix2 r c := ⟨i 0, i 1, eq_ix2 i⟩
  exact scatter_apply x ca r c

end Cert.ReferenceIdeal.Scatter

end
-- ==== Proof.lean ====
/-
  The claims of this certificate, assembled.

  The kernel and the reference compute one image.  For a spectral cube x[0, m, n, l] and a coded aperture
  ca[0, m, n, 0], band l of row m is masked by the aperture and shifted l columns to the right; the image at (m, c) is

      y[m, c]  =  the sum of  x[0, m, c - l, l] · ca[0, m, c - l, 0]  over the bands l with l ≤ c < l + 1024

  (`Cert.Image.image`, Proof/Image.lean).  The kernel builds it by rows in blocks of 64: it clears the block and adds
  the 64 shifted, masked bands one after the other, reading the block back before each addition (Proof/ChainIdeal.lean,
  Proof/Bands.lean, Proof/KernelSide.lean).  The reference builds it by one scatter that adds the update (m, n, l) at
  (m, n + l) (Proof/RefSide.lean).  Both are sums of the same terms; over the extended reals a finite sum does not depend
  on the order of its terms, so the two images are equal, whatever the inputs hold: no finiteness is used.  Both
  programs then put the same two unit axes around the [1024, 1087] image.

  The three frames: the two kernels' are the frame certificate's (Proof/FrameWord.lean, Proof/FrameIdeal.lean: the stores
  of the body cover its output block because the first of them, the clearing one, goes through the whole block); the
  reference's is its run with the result dropped.  The ideal pass rewrote nothing, so `preserves` is `True`.
-/
import proofs.«144922_j22230750724218_1_alg».proof.Defs
import proofs.«144922_j22230750724218_1_alg».proof.Proof.Gen.Kernel
import proofs.«144922_j22230750724218_1_alg».proof.Proof.Gen.KernelIdeal
import proofs.«144922_j22230750724218_1_alg».proof.Proof.Gen.ReferenceIdeal
import proofs.«144922_j22230750724218_1_alg».proof.Proof.Gen.ReferenceIdeal.Read
import proofs.«144922_j22230750724218_1_alg».proof.Proof.Gen.Pre_finite_inputs
import proofs.«144922_j22230750724218_1_alg».proof.Proof.FrameWord
import proofs.«144922_j22230750724218_1_alg».proof.Proof.FrameIdeal
import proofs.«144922_j22230750724218_1_alg».proof.Proof.KernelSide
import proofs.«144922_j22230750724218_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the image of the arguments inside the same two unit axes: the kernel's run (KernelSide.lean)
    and the reference's run, whose scatter is the image (RefSide.lean), from arguments that agree. -/
theorem algebraic : Cert.algebraic_KernelIdeal_ReferenceIdeal := by
  intro m ρ m' ρ' _ hagree
  refine ⟨fun c => broadcastInDim Cert.KernelIdeal.S1x1024x1087x1 ![1, 2]
      Cert.KernelIdeal.Facts₀.bcast_S1024x1087_S1x1024x1087x1_1_2 (Cert.KernelIdeal.Dispersed.result m c),
    Cert.KernelIdeal.Dispersed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq]
  unfold Cert.ReferenceIdeal.Read.val_main_v18
  rw [Cert.ReferenceIdeal.Scatter.scatter_eq_image, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
